-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩
abbrev S4096x16 : Shape := ⟨2, ![4096, 16]⟩
abbrev S16x4096 : Shape := ⟨2, ![16, 4096]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  reducesTo_S_S_d : S_.ReducesTo [] S_
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_

variable [Facts]

def fn_part1 {F : FTy → Type} [FloatOps F] (main_arg4 : FVec F S4096x16 .f32) (main_arg5 : FVec F S16x4096 .f32) (main_v12 : IVec S_ 1) (main_v15 : IVec S4096x4096 1) (main_c_5 : IVec S_ 1) : IVec S_ 1 :=
  let main_v16 : IVec S_ 1 := (fun x v => Host.reduce IntOp.andi x v reducesTo_S4096x4096_S_d0_1 h_S_) main_v15 main_c_5
  let main_v17 : IVec S_ 1 := andi main_v12 main_v16
  let main_v18 : FVec F S4096x16 .f32 := Host.absf main_arg4
  let main_cst_6 : FVec F S_ .f32 := constant S_ .f32 0x7F800000#32
  let main_v19 : FVec F S4096x16 .f32 := broadcastInDim S4096x16 ![] bcast_S_S4096x16 main_cst_6
  let main_v20 : IVec S4096x16 1 := cmpf .olt main_v18 main_v19
  let main_c_7 : IVec S_ 1 := constantI S_ 1 1#1
  let main_v21 : IVec S_ 1 := (fun x v => Host.reduce IntOp.andi x v reducesTo_S4096x16_S_d0_1 h_S_) main_v20 main_c_7
  let main_v22 : IVec S_ 1 := andi main_v17 main_v21
  let main_v23 : FVec F S16x4096 .f32 := Host.absf main_arg5
  let main_cst_8 : FVec F S_ .f32 := constant S_ .f32 0x7F800000#32
  let main_v24 : FVec F S16x4096 .f32 := broadcastInDim S16x4096 ![] bcast_S_S16x4096 main_cst_8
  let main_v25 : IVec S16x4096 1 := cmpf .olt main_v23 main_v24
  let main_c_9 : IVec S_ 1 := constantI S_ 1 1#1
  let main_v26 : IVec S_ 1 := (fun x v => Host.reduce IntOp.andi x v reducesTo_S16x4096_S_d0_1 h_S_) main_v25 main_c_9
  let main_v27 : IVec S_ 1 := andi main_v22 main_v26
  main_v27

def fn {F : FTy → Type} [FloatOps F] (main_arg0 : FVec F S8192x4096 .f32) (main_arg1 : FVec F S4096x4096 .f32) (main_arg2 : FVec F S_ .f32) (main_arg3 : FVec F S4096x4096 .f32) (main_arg4 : FVec F S4096x16 .f32) (main_arg5 : FVec F S16x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  let main_v13 : FVec F S4096x4096 .f32 := Host.absf main_arg3
  let main_cst_4 : FVec F S_ .f32 := constant S_ .f32 0x7F800000#32
  let main_v14 : FVec F S4096x4096 .f32 := broadcastInDim S4096x4096 ![] bcast_S_S4096x4096 main_cst_4
  let main_v15 : IVec S4096x4096 1 := cmpf .olt main_v13 main_v14
  let main_c_5 : IVec S_ 1 := constantI S_ 1 1#1
  fn_part1 (F := F) main_arg4 main_arg5 main_v12 main_v15 main_c_5
-- ==== Kernel.lean ====
abbrev S8192x4096 : Shape := ⟨2, ![8192, 4096]⟩
abbrev S4096x4096 : Shape := ⟨2, ![4096, 4096]⟩
abbrev S_ : Shape := ⟨0, ![]⟩
abbrev S4096x16 : Shape := ⟨2, ![4096, 16]⟩
abbrev S16x4096 : Shape := ⟨2, ![16, 4096]⟩
abbrev S8192x16 : Shape := ⟨2, ![8192, 16]⟩
abbrev S2048x512 : Shape := ⟨2, ![2048, 512]⟩
abbrev S512x1024 : Shape := ⟨2, ![512, 1024]⟩
abbrev S2048x16 : Shape := ⟨2, ![2048, 16]⟩
abbrev S16x1024 : Shape := ⟨2, ![16, 1024]⟩
abbrev S2048x1024 : Shape := ⟨2, ![2048, 1024]⟩

abbrev nBuf : Space → Nat
  | .hbm => 16
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x16, .f32⟩
  | .hbm, ⟨5, _⟩ => ⟨S16x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S8192x4096, .bf16⟩
  | .hbm, ⟨11, _⟩ => ⟨S4096x16, .bf16⟩
  | .hbm, ⟨12, _⟩ => ⟨S16x4096, .bf16⟩
  | .hbm, ⟨13, _⟩ => ⟨S8192x16, .f32⟩
  | .hbm, ⟨14, _⟩ => ⟨S8192x16, .bf16⟩
  | .hbm, ⟨15, _⟩ => ⟨S8192x4096, .f32⟩
  | .local _ .vmem, ⟨0, _⟩ => ⟨S2048x512, .bf16⟩
  | .local _ .vmem, ⟨1, _⟩ => ⟨S2048x512, .bf16⟩
  | .local _ .vmem, ⟨2, _⟩ => ⟨S512x1024, .bf16⟩
  | .local _ .vmem, ⟨3, _⟩ => ⟨S512x1024, .bf16⟩
  | .local _ .vmem, ⟨4, _⟩ => ⟨S2048x16, .bf16⟩
  | .local _ .vmem, ⟨5, _⟩ => ⟨S2048x16, .bf16⟩
  | .local _ .vmem, ⟨6, _⟩ => ⟨S16x1024, .bf16⟩
  | .local _ .vmem, ⟨7, _⟩ => ⟨S16x1024, .bf16⟩
  | .local _ .vmem, ⟨8, _⟩ => ⟨S2048x1024, .f32⟩
  | .local _ .vmem, ⟨9, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S4096x4096 : S_.BroadcastsInDim S4096x4096 (![] : Fin 0 → Fin S4096x4096.rank)
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  dot_S8192x4096_S4096x16_S8192x16_1_0_0_1_n_n_wf : DotDims.WF S8192x4096 S4096x16 S8192x16 [1] [0] [0] [1] [] []
  dot_S2048x512_S512x1024_S2048x1024_1_0_0_1_n_n_wf : DotDims.WF S2048x512 S512x1024 S2048x1024 [1] [0] [0] [1] [] []
  dot_S2048x16_S16x1024_S2048x1024_1_0_0_1_n_n_wf : DotDims.WF S2048x16 S16x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .bf16 = 32 ∨ (Rect.block (s := S4096x4096) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S8192x16.size a
  hwx0_2 : ∀ i : grid0.Coords, EltTy.bits .bf16 = 32 ∨ (Rect.block (s := S8192x16) S2048x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S8192x4096.size a
  hwx0_4 : ∀ i : grid0.Coords, EltTy.bits .f32 = 32 ∨ (Rect.block (s := S8192x4096) S2048x1024.size (cc0_transform_4 i) (hinb0_4 i)).WholeWords (EltTy.packing .f32)

variable [Facts₀]

def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S2048x16_S16x1024_S2048x1024_1_0_0_1_n_n : DotDims S2048x16 S16x1024 S2048x1024 where
  lhsContracting := [1]
  rhsContracting := [0]
  lhsNonContracting := [0]
  rhsNonContracting := [1]
  lhsBatch := []
  rhsBatch := []
  wf := dot_S2048x16_S16x1024_S2048x1024_1_0_0_1_n_n_wf

abbrev win0_0 : Pipeline.Window sig grid0 :=
  Pipeline.Window.ofSpec (Memref.whole main_v4) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩
abbrev S4096x16 : Shape := ⟨2, ![4096, 16]⟩
abbrev S16x4096 : Shape := ⟨2, ![16, 4096]⟩
abbrev S8192x16 : Shape := ⟨2, ![8192, 16]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096x4096, .f32⟩
  | .hbm, ⟨4, _⟩ => ⟨S4096x16, .f32⟩
  | .hbm, ⟨5, _⟩ => ⟨S16x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S8192x4096, .f32⟩
  | .hbm, ⟨10, _⟩ => ⟨S8192x16, .f32⟩
  | .hbm, ⟨11, _⟩ => ⟨S8192x4096, .f32⟩
  | .hbm, ⟨12, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf

class Facts : Prop extends Facts₀ where

variable [Facts]
-- ==== Proof.Target.lean ====
/-
  The function of the six argument arrays that both programs compute, index by index, over the extended reals:
  a dense product of the activations with the dequantized weight, plus a rank-16 correction,

      Y[p, q] = ∑_k X[p, k] · (Wn[k, q] · c1 · Ck[k, q])  +  ∑_r (∑_k X[p, k] · L1[k, r]) · L2[r, q].
-/
import Idealize.ShloMosaic.Lib.ValueIdx
import Idealize.ShloMosaic.PureOps.Ideal

noncomputable section

namespace Cert.Target

open Idealize.ShloMosaic Idealize.ShloMosaic.ValueIdx

/-- A matrix of extended reals with `a` rows and `b` columns, as a function of a rank-2 index. -/
abbrev Mat (a b : ℕ) : Type := (⟨2, ![a, b]⟩ : Shape).Idx → EReal

/-- The dequantized weight at row `k`, column `q`: the stored weight times the scalar scale times the entry's own
    scale, in that order. -/
def weight (Wn : Mat 4096 4096) (c1 : EReal) (Ck : Mat 4096 4096) (k q : Fin 4096) : EReal :=
  Wn (ix2 k q) * c1 * Ck (ix2 k q)

/-- The activations projected onto the rank-16 factor: row `p` of `X · L1`, at rank coordinate `r`. -/
def proj (X : Mat 8192 4096) (L1 : Mat 4096 16) (p : Fin 8192) (r : Fin 16) : EReal :=
  ∑ k : Fin 4096, X (ix2 p k) * L1 (ix2 k r)

/-- The dense term: row `p` of `X` against column `q` of the dequantized weight. -/
def dense (X : Mat 8192 4096) (Wn : Mat 4096 4096) (c1 : EReal) (Ck : Mat 4096 4096) (p : Fin 8192) (q : Fin 4096) : EReal :=
  ∑ k : Fin 4096, X (ix2 p k) * weight Wn c1 Ck k q

/-- The rank-16 correction: the projected row against column `q` of `L2`. -/
def lowRank (X : Mat 8192 4096) (L1 : Mat 4096 16) (L2 : Mat 16 4096) (p : Fin 8192) (q : Fin 4096) : EReal :=
  ∑ r : Fin 16, proj X L1 p r * L2 (ix2 r q)

/-- The result array: the dense term plus the rank-16 correction. -/
def result (X : Mat 8192 4096) (Wn : Mat 4096 4096) (c1 : EReal) (Ck : Mat 4096 4096) (L1 : Mat 4096 16)
    (L2 : Mat 16 4096) : Mat 8192 4096 := fun i =>
  dense X Wn c1 Ck (i 0) (i 1) + lowRank X L1 L2 (i 0) (i 1)

end Cert.Target

end
-- ==== Proof.RefSide.lean ====
/-
  The reference's result, read index by index: a dense product with the dequantized weight plus the product of the
  projected activations with the second low-rank factor — the function `Cert.Target.result` of its six arguments.
-/
import proofs.«169745_j70463233458673_2_alg».proof.Proof.Gen.ReferenceIdeal.Read
import proofs.«169745_j70463233458673_2_alg».proof.Proof.Target

noncomputable section

namespace Cert.ReferenceIdeal.RefValue

open Cert.ReferenceIdeal Cert.ReferenceIdeal.Gen Cert.ReferenceIdeal.Read Idealize.ShloMosaic Idealize.ShloMosaic.ValueIdx

/-- The one index of a rank-0 array. -/
abbrev pt : S_.Idx := fun a => a.elim0

/-- Each host product contracts the left operand's columns against the right operand's rows, so at the result index
    `(p, q)` the first product reads `X[p, k]` and `W[k, q]`, the projection reads `X[p, k]` and `L1[k, r]`, and the last
    product reads the projection at `[p, r]` and `L2[r, q]`; the scalar scale is broadcast. With these index
    identities the reference's term is the target function by unfolding. -/
theorem result_eq (x0 : (⟨S8192x4096, .f32⟩ : BufTy).Contents (Elt Ideal)) (x1 : (⟨S4096x4096, .f32⟩ : BufTy).Contents (Elt Ideal))
    (x2 : (⟨S_, .f32⟩ : BufTy).Contents (Elt Ideal)) (x3 : (⟨S4096x4096, .f32⟩ : BufTy).Contents (Elt Ideal))
    (x4 : (⟨S4096x16, .f32⟩ : BufTy).Contents (Elt Ideal)) (x5 : (⟨S16x4096, .f32⟩ : BufTy).Contents (Elt Ideal)) :
    val_main_v6 (F := Ideal) x0 x1 x2 x3 x4 x5 = Cert.Target.result x0 x1 (x2 pt) x3 x4 x5 := by
  funext i
  obtain ⟨p, q, rfl⟩ : ∃ (p : Fin 8192) (q : Fin 4096), i = ix2 p q := ⟨i 0, i 1, eq_ix2 i⟩
  have el3 : ∀ k : Fin 4096, lidx_main_v3 (ix2 p q) k = ix2 p k := fun k => funext fun a => by
    match a with | ⟨0, _⟩ => rfl | ⟨1, _⟩ => rfl
  have er3 : ∀ k : Fin 4096, ridx_main_v3 (ix2 p q) k = ix2 k q := fun k => funext fun a => by
    match a with | ⟨0, _⟩ => rfl | ⟨1, _⟩ => rfl
  have el5 : ∀ r : Fin 16, lidx_main_v5 (ix2 p q) r = ix2 p r := fun r => funext fun a => by
    match a with | ⟨0, _⟩ => rfl | ⟨1, _⟩ => rfl
  have er5 : ∀ r : Fin 16, ridx_main_v5 (ix2 p q) r = ix2 r q := fun r => funext fun a => by
    match a with | ⟨0, _⟩ => rfl | ⟨1, _⟩ => rfl
  have el4 : ∀ (r : Fin 16) (k : Fin 4096), lidx_main_v4 (ix2 p r) k = ix2 p k := fun r k => funext fun a => by
    match a with | ⟨0, _⟩ => rfl | ⟨1, _⟩ => rfl
  have er4 : ∀ (r : Fin 16) (k : Fin 4096), ridx_main_v4 (ix2 p r) k = ix2 k r := fun r k => funext fun a => by
    match a with | ⟨0, _⟩ => rfl | ⟨1, _⟩ => rfl
  rw [val_main_v6_apply, val_main_v3_apply, val_main_v5_apply]
  simp only [val_main_v4_apply, val_main_v2_apply, val_main_v1_apply, val_main_v0_apply, Ideal.addf_def, Ideal.mulf_def]
  simp only [el3, er3, el5, er5]
  simp only [el4, er4]
  rfl

end Cert.ReferenceIdeal.RefValue

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.Products.lean ====
/-
  The kernel body's three stored values and the host's projection, read at an index over the extended reals.

  The body's first store is the zero block. Its second adds to the block it read the product of the activation block
  [2048, 512] with the weight block [512, 1024]; its third, at the last reduction step, adds the product of the projected
  block [2048, 16] with the second low-rank factor's block [16, 1024]. Each product contracts the left operand's columns
  against the right operand's rows into a zero accumulator, so at `(a, b)` it is the plain sum `∑_k l[a, k] · r[k, b]`;
  the shape casts around it are casts of a shape to itself. The host computes the projection `X · L1` the same way.
-/
import proofs.«169745_j70463233458673_2_alg».proof.Proof.Gen.KernelIdeal.Skeleton
import proofs.«169745_j70463233458673_2_alg».proof.Proof.LibDotSingle
import Idealize.ShloMosaic.Lib.ValueIdx
import Idealize.ShloMosaic.Lib.Pipeline.Value
import Idealize.ShloMosaic.PureOps.Ideal.Laws

noncomputable section

namespace Cert.KernelIdeal.Products

open Cert.KernelIdeal Cert.KernelIdeal.Gen Idealize.ShloMosaic Idealize.ShloMosaic.ValueIdx

/-! ### The product 2048x512 · 512x1024: its operand indices at a result index and a contraction coordinate -/

theorem lhs_main_0 (i : S2048x1024.Idx) (q : dot_S2048x512_S512x1024_S2048x1024_1_0_0_1_n_n.contr.Idx) :
    (dot_S2048x512_S512x1024_S2048x1024_1_0_0_1_n_n.lhsIdx i q 0).val = (i 0).val := by
  unfold DotDims.lhsIdx
  rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
  rfl
theorem lhs_main_1 (i : S2048x1024.Idx) (q : dot_S2048x512_S512x1024_S2048x1024_1_0_0_1_n_n.contr.Idx) :
    (dot_S2048x512_S512x1024_S2048x1024_1_0_0_1_n_n.lhsIdx i q 1).val = (q ⟨0, by decide⟩).val :=
  dot_S2048x512_S512x1024_S2048x1024_1_0_0_1_n_n.lhsIdx_val_of_single rfl i q
theorem rhs_main_0 (i : S2048x1024.Idx) (q : dot_S2048x512_S512x1024_S2048x1024_1_0_0_1_n_n.contr.Idx) :
    (dot_S2048x512_S512x1024_S2048x1024_1_0_0_1_n_n.rhsIdx i q 0).val = (q ⟨0, by decide⟩).val :=
  dot_S2048x512_S512x1024_S2048x1024_1_0_0_1_n_n.rhsIdx_val_of_single rfl i q
theorem rhs_main_1 (i : S2048x1024.Idx) (q : dot_S2048x512_S512x1024_S2048x1024_1_0_0_1_n_n.contr.Idx) :
    (dot_S2048x512_S512x1024_S2048x1024_1_0_0_1_n_n.rhsIdx i q 1).val = (i 1).val := by
  unfold DotDims.rhsIdx
  rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
  rfl
/-- The left operand is read at the result's row and the contraction coordinate. -/
theorem lidx_main (i : S2048x1024.Idx) (k : Fin 512) :
    dot_S2048x512_S512x1024_S2048x1024_1_0_0_1_n_n.lhsIdx i ((contrEquiv1 dot_S2048x512_S512x1024_S2048x1024_1_0_0_1_n_n 512 rfl rfl).symm k) = (ix2 (i 0) k : S2048x512.Idx) :=
  funext fun a => Fin.ext (by
    match a with
    | ⟨0, _⟩ => exact lhs_main_0 _ _
    | ⟨1, _⟩ => exact (lhs_main_1 _ _).trans (contrEquiv1_symm_val dot_S2048x512_S512x1024_S2048x1024_1_0_0_1_n_n 512 rfl rfl k))
/-- The right operand is read at the contraction coordinate and the result's column. -/
theorem ridx_main (i : S2048x1024.Idx) (k : Fin 512) :
    dot_S2048x512_S512x1024_S2048x1024_1_0_0_1_n_n.rhsIdx i ((contrEquiv1 dot_S2048x512_S512x1024_S2048x1024_1_0_0_1_n_n 512 rfl rfl).symm k) = (ix2 k (i 1) : S512x1024.Idx) :=
  funext fun a => Fin.ext (by
    match a with
    | ⟨0, _⟩ => exact (rhs_main_0 _ _).trans (contrEquiv1_symm_val dot_S2048x512_S512x1024_S2048x1024_1_0_0_1_n_n 512 rfl rfl k)
    | ⟨1, _⟩ => exact rhs_main_1 _ _)

/-! ### The product 2048x16 · 16x1024: its operand indices at a result index and a contraction coordinate -/

theorem lhs_corr_0 (i : S2048x1024.Idx) (q : dot_S2048x16_S16x1024_S2048x1024_1_0_0_1_n_n.contr.Idx) :
    (dot_S2048x16_S16x1024_S2048x1024_1_0_0_1_n_n.lhsIdx i q 0).val = (i 0).val := by
  unfold DotDims.lhsIdx
  rw [dif_neg (show ¬(0 : Fin S2048x16.rank) ∈ dot_S2048x16_S16x1024_S2048x1024_1_0_0_1_n_n.lhsBatch by decide), dif_pos (show (0 : Fin S2048x16.rank) ∈ dot_S2048x16_S16x1024_S2048x1024_1_0_0_1_n_n.lhsNonContracting by decide)]
  rfl
theorem lhs_corr_1 (i : S2048x1024.Idx) (q : dot_S2048x16_S16x1024_S2048x1024_1_0_0_1_n_n.contr.Idx) :
    (dot_S2048x16_S16x1024_S2048x1024_1_0_0_1_n_n.lhsIdx i q 1).val = (q ⟨0, by decide⟩).val :=
  dot_S2048x16_S16x1024_S2048x1024_1_0_0_1_n_n.lhsIdx_val_of_single rfl i q
theorem rhs_corr_0 (i : S2048x1024.Idx) (q : dot_S2048x16_S16x1024_S2048x1024_1_0_0_1_n_n.contr.Idx) :
    (dot_S2048x16_S16x1024_S2048x1024_1_0_0_1_n_n.rhsIdx i q 0).val = (q ⟨0, by decide⟩).val :=
  dot_S2048x16_S16x1024_S2048x1024_1_0_0_1_n_n.rhsIdx_val_of_single rfl i q
theorem rhs_corr_1 (i : S2048x1024.Idx) (q : dot_S2048x16_S16x1024_S2048x1024_1_0_0_1_n_n.contr.Idx) :
    (dot_S2048x16_S16x1024_S2048x1024_1_0_0_1_n_n.rhsIdx i q 1).val = (i 1).val := by
  unfold DotDims.rhsIdx
  rw [dif_neg (show ¬(1 : Fin S16x1024.rank) ∈ dot_S2048x16_S16x1024_S2048x1024_1_0_0_1_n_n.rhsBatch by decide), dif_pos (show (1 : Fin S16x1024.rank) ∈ dot_S2048x16_S16x1024_S2048x1024_1_0_0_1_n_n.rhsNonContracting by decide)]
  rfl
/-- The left operand is read at the result's row and the contraction coordinate. -/
theorem lidx_corr (i : S2048x1024.Idx) (k : Fin 16) :
    dot_S2048x16_S16x1024_S2048x1024_1_0_0_1_n_n.lhsIdx i ((contrEquiv1 dot_S2048x16_S16x1024_S2048x1024_1_0_0_1_n_n 16 rfl rfl).symm k) = (ix2 (i 0) k : S2048x16.Idx) :=
  funext fun a => Fin.ext (by
    match a with
    | ⟨0, _⟩ => exact lhs_corr_0 _ _
    | ⟨1, _⟩ => exact (lhs_corr_1 _ _).trans (contrEquiv1_symm_val dot_S2048x16_S16x1024_S2048x1024_1_0_0_1_n_n 16 rfl rfl k))
/-- The right operand is read at the contraction coordinate and the result's column. -/
theorem ridx_corr (i : S2048x1024.Idx) (k : Fin 16) :
    dot_S2048x16_S16x1024_S2048x1024_1_0_0_1_n_n.rhsIdx i ((contrEquiv1 dot_S2048x16_S16x1024_S2048x1024_1_0_0_1_n_n 16 rfl rfl).symm k) = (ix2 k (i 1) : S16x1024.Idx) :=
  funext fun a => Fin.ext (by
    match a with
    | ⟨0, _⟩ => exact (rhs_corr_0 _ _).trans (contrEquiv1_symm_val dot_S2048x16_S16x1024_S2048x1024_1_0_0_1_n_n 16 rfl rfl k)
    | ⟨1, _⟩ => exact rhs_corr_1 _ _)

/-! ### The product 8192x4096 · 4096x16: its operand indices at a result index and a contraction coordinate -/

theorem lhs_proj_0 (i : S8192x16.Idx) (q : dot_S8192x4096_S4096x16_S8192x16_1_0_0_1_n_n.contr.Idx) :
    (dot_S8192x4096_S4096x16_S8192x16_1_0_0_1_n_n.lhsIdx i q 0).val = (i 0).val := by
  unfold DotDims.lhsIdx
  rw [dif_neg (show ¬(0 : Fin S8192x4096.rank) ∈ dot_S8192x4096_S4096x16_S8192x16_1_0_0_1_n_n.lhsBatch by decide), dif_pos (show (0 : Fin S8192x4096.rank) ∈ dot_S8192x4096_S4096x16_S8192x16_1_0_0_1_n_n.lhsNonContracting by decide)]
  rfl
theorem lhs_proj_1 (i : S8192x16.Idx) (q : dot_S8192x4096_S4096x16_S8192x16_1_0_0_1_n_n.contr.Idx) :
    (dot_S8192x4096_S4096x16_S8192x16_1_0_0_1_n_n.lhsIdx i q 1).val = (q ⟨0, by decide⟩).val :=
  dot_S8192x4096_S4096x16_S8192x16_1_0_0_1_n_n.lhsIdx_val_of_single rfl i q
theorem rhs_proj_0 (i : S8192x16.Idx) (q : dot_S8192x4096_S4096x16_S8192x16_1_0_0_1_n_n.contr.Idx) :
    (dot_S8192x4096_S4096x16_S8192x16_1_0_0_1_n_n.rhsIdx i q 0).val = (q ⟨0, by decide⟩).val :=
  dot_S8192x4096_S4096x16_S8192x16_1_0_0_1_n_n.rhsIdx_val_of_single rfl i q
theorem rhs_proj_1 (i : S8192x16.Idx) (q : dot_S8192x4096_S4096x16_S8192x16_1_0_0_1_n_n.contr.Idx) :
    (dot_S8192x4096_S4096x16_S8192x16_1_0_0_1_n_n.rhsIdx i q 1).val = (i 1).val := by
  unfold DotDims.rhsIdx
  rw [dif_neg (show ¬(1 : Fin S4096x16.rank) ∈ dot_S8192x4096_S4096x16_S8192x16_1_0_0_1_n_n.rhsBatch by decide), dif_pos (show (1 : Fin S4096x16.rank) ∈ dot_S8192x4096_S4096x16_S8192x16_1_0_0_1_n_n.rhsNonContracting by decide)]
  rfl
/-- The left operand is read at the result's row and the contraction coordinate. -/
theorem lidx_proj (i : S8192x16.Idx) (k : Fin 4096) :
    dot_S8192x4096_S4096x16_S8192x16_1_0_0_1_n_n.lhsIdx i ((contrEquiv1 dot_S8192x4096_S4096x16_S8192x16_1_0_0_1_n_n 4096 rfl rfl).symm k) = (ix2 (i 0) k : S8192x4096.Idx) :=
  funext fun a => Fin.ext (by
    match a with
    | ⟨0, _⟩ => exact lhs_proj_0 _ _
    | ⟨1, _⟩ => exact (lhs_proj_1 _ _).trans (contrEquiv1_symm_val dot_S8192x4096_S4096x16_S8192x16_1_0_0_1_n_n 4096 rfl rfl k))
/-- The right operand is read at the contraction coordinate and the result's column. -/
theorem ridx_proj (i : S8192x16.Idx) (k : Fin 4096) :
    dot_S8192x4096_S4096x16_S8192x16_1_0_0_1_n_n.rhsIdx i ((contrEquiv1 dot_S8192x4096_S4096x16_S8192x16_1_0_0_1_n_n 4096 rfl rfl).symm k) = (ix2 k (i 1) : S4096x16.Idx) :=
  funext fun a => Fin.ext (by
    match a with
    | ⟨0, _⟩ => exact (rhs_proj_0 _ _).trans (contrEquiv1_symm_val dot_S8192x4096_S4096x16_S8192x16_1_0_0_1_n_n 4096 rfl rfl k)
    | ⟨1, _⟩ => exact rhs_proj_1 _ _)

/-! ## The stored values at an index -/

/-- The first store writes zeros. -/
theorem zero_apply (y : S2048x1024.Idx) : k0_pay1 (F := Ideal) y = 0 := by
  unfold k0_pay1
  show Ideal.ofBits .f32 0x00000000#32 = 0
  exact Ideal.ofBits_zero_f32

/-- The accumulating store: the block read back plus the activation block times the weight block. -/
theorem step_apply (acc : Vec Ideal S2048x1024 .f32) (x : Vec Ideal S2048x512 .bf16) (w : Vec Ideal S512x1024 .bf16)
    (a : Fin 2048) (b : Fin 1024) :
    k0_pay2 acc x w (ix2 a b) = acc (ix2 a b) + ∑ k : Fin 512, x (ix2 a k) * w (ix2 k b) := by
  unfold k0_pay2
  simp only [shapeCast_self]
  exact congrArg (acc (ix2 a b) + ·) (Cert.LibDotSingle.matmul_zero_apply dot_S2048x512_S512x1024_S2048x1024_1_0_0_1_n_n 512 rfl rfl none x w (ix2 a b)
    (fun k => ix2 a k) (fun k => ix2 k b) (lidx_main (ix2 a b)) (ridx_main (ix2 a b)))

/-- The closing store: the block read back plus the projected block times the second low-rank factor's block. -/
theorem close_apply (xl : Vec Ideal S2048x16 .bf16) (l2 : Vec Ideal S16x1024 .bf16) (acc : Vec Ideal S2048x1024 .f32)
    (a : Fin 2048) (b : Fin 1024) :
    k0_pay3 xl l2 acc (ix2 a b) = acc (ix2 a b) + ∑ r : Fin 16, xl (ix2 a r) * l2 (ix2 r b) := by
  unfold k0_pay3
  simp only [shapeCast_self]
  exact congrArg (acc (ix2 a b) + ·) (Cert.LibDotSingle.matmul_zero_apply dot_S2048x16_S16x1024_S2048x1024_1_0_0_1_n_n 16 rfl rfl none xl l2 (ix2 a b)
    (fun r => ix2 a r) (fun r => ix2 r b) (lidx_corr (ix2 a b)) (ridx_corr (ix2 a b)))

/-- The host's projection at row `p`, rank coordinate `r`: the row of the activations against the column of the
    first low-rank factor. -/
theorem proj_apply (x : FVec Ideal S8192x4096 .bf16) (l1 : FVec Ideal S4096x16 .bf16) (p : Fin 8192) (r : Fin 16) :
    Host.dotGeneral dot_S8192x4096_S4096x16_S8192x16_1_0_0_1_n_n none x l1 (ix2 p r)
      = ∑ k : Fin 4096, x (ix2 p k) * l1 (ix2 k r) := by
  simp only [Host.dotGeneral]
  rw [Ideal.dotGeneral_apply, ← Equiv.sum_comp (contrEquiv1 dot_S8192x4096_S4096x16_S8192x16_1_0_0_1_n_n 4096 rfl rfl).symm]
  exact Finset.sum_congr rfl fun k _ => by rw [lidx_proj (ix2 p r) k, ridx_proj (ix2 p r) k]

end Cert.KernelIdeal.Products

end
-- ==== Proof.Entry.lean ====
/-
  What the kernel's region finds in its four input arrays, and which entries of them each grid point's blocks hold.

  Before the region the host rounds the activations `X`, the dequantized weight `Wn · c1 · Ck`, the projection `X · L1`
  and the second low-rank factor `L2` to a narrower format; over the extended reals a change of format is the identity,
  so the region finds exactly those four arrays. The grid has 4 × 4 × 8 points, `t = 32·ti + 8·tj + tk`: point `t`
  holds rows `2048·ti …` and columns `512·tk …` of the activations, rows `512·tk …` and columns `1024·tj …` of the weight,
  rows `2048·ti …` of the projection and columns `1024·tj …` of the second factor.
-/
import proofs.«169745_j70463233458673_2_alg».proof.Proof.Gen.KernelIdeal.Frame
import proofs.«169745_j70463233458673_2_alg».proof.Proof.Products
import Idealize.ShloMosaic.Lib.StableHlo.Run
import Idealize.ShloMosaic.Lib.Pipeline.Value

noncomputable section

namespace Cert.KernelIdeal.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The one index of a rank-0 array. -/
abbrev pt : S_.Idx := fun a => a.elim0

/-! ## The six arguments as launched, as arrays of extended reals -/

abbrev aX (c : Dev nD) : (⟨S8192x4096, .f32⟩ : BufTy).Contents (Elt Ideal) := m ((c : Thread nD τ).loc main_arg0)
abbrev aWn (c : Dev nD) : (⟨S4096x4096, .f32⟩ : BufTy).Contents (Elt Ideal) := m ((c : Thread nD τ).loc main_arg1)
abbrev aC (c : Dev nD) : (⟨S_, .f32⟩ : BufTy).Contents (Elt Ideal) := m ((c : Thread nD τ).loc main_arg2)
abbrev aCk (c : Dev nD) : (⟨S4096x4096, .f32⟩ : BufTy).Contents (Elt Ideal) := m ((c : Thread nD τ).loc main_arg3)
abbrev aL1 (c : Dev nD) : (⟨S4096x16, .f32⟩ : BufTy).Contents (Elt Ideal) := m ((c : Thread nD τ).loc main_arg4)
abbrev aL2 (c : Dev nD) : (⟨S16x4096, .f32⟩ : BufTy).Contents (Elt Ideal) := m ((c : Thread nD τ).loc main_arg5)

/-! ## The arrays at region entry -/

/-- The activations, as launched. -/
theorem acts_eq (c : Dev nD) :
    (V m c main_v4 : (⟨S8192x4096, .bf16⟩ : BufTy).Contents (Elt Ideal)) = aX m c := by
  dsimp only [Gen.V, Gen.hostOps0]; after_results; rfl

/-- The second low-rank factor, as launched. -/
theorem factor_eq (c : Dev nD) :
    (V m c main_v6 : (⟨S16x4096, .bf16⟩ : BufTy).Contents (Elt Ideal)) = aL2 m c := by
  dsimp only [Gen.V, Gen.hostOps0]; after_results; rfl

/-- The dequantized weight at an entry: the stored weight times the scalar scale times the entry's own scale. -/
theorem weight_apply (c : Dev nD) (i : S4096x4096.Idx) :
    (V m c main_v3 : (⟨S4096x4096, .bf16⟩ : BufTy).Contents (Elt Ideal)) i = aWn m c i * aC m c pt * aCk m c i := by
  have e : (V m c main_v3 : (⟨S4096x4096, .bf16⟩ : BufTy).Contents (Elt Ideal))
      = truncf (F := Ideal) .bf16 (mulf (mulf (aWn m c) (broadcastInDim S4096x4096 ![] bcast_S_S4096x4096 (aC m c))) (aCk m c)) bitsLt_bf16_f32 := by
    dsimp only [Gen.V, Gen.hostOps0]; after_results
  rw [e]
  show aWn m c i * broadcastInDim S4096x4096 ![] bcast_S_S4096x4096 (aC m c) i * aCk m c i = _
  rw [broadcastInDim_apply _ bcast_S_S4096x4096 (aC m c) i pt (fun a => a.elim0)]

/-- The projection at row `p`, rank coordinate `r`: that row of the activations against that column of the first
    low-rank factor. -/
theorem projected_apply (c : Dev nD) (p : Fin 8192) (r : Fin 16) :
    (V m c main_v8 : (⟨S8192x16, .bf16⟩ : BufTy).Contents (Elt Ideal)) (ix2 p r)
      = ∑ k : Fin 4096, aX m c (ix2 p k) * aL1 m c (ix2 k r) := by
  have e : (V m c main_v8 : (⟨S8192x16, .bf16⟩ : BufTy).Contents (Elt Ideal))
      = truncf (F := Ideal) .bf16 (Host.dotGeneral dot_S8192x4096_S4096x16_S8192x16_1_0_0_1_n_n none
          (truncf (F := Ideal) .bf16 (aX m c) bitsLt_bf16_f32) (truncf (F := Ideal) .bf16 (aL1 m c) bitsLt_bf16_f32)) bitsLt_bf16_f32 := by
    dsimp only [Gen.V, Gen.hostOps0]; after_results
  rw [e]
  exact Cert.KernelIdeal.Products.proj_apply _ _ p r

/-! ## The blocks a grid point holds -/

/-- The printed index maps, decided over the grid's 128 points. -/
theorem idx_facts : ∀ t : Fin cfg0.N,
    win0_0.index t (0 : Fin 2) = t.val / 32 ∧ win0_0.index t (1 : Fin 2) = t.val % 8
    ∧ win0_1.index t (0 : Fin 2) = t.val % 8 ∧ win0_1.index t (1 : Fin 2) = t.val / 8 % 4
    ∧ win0_2.index t (0 : Fin 2) = t.val / 32 ∧ win0_2.index t (1 : Fin 2) = 0
    ∧ win0_3.index t (0 : Fin 2) = 0 ∧ win0_3.index t (1 : Fin 2) = t.val / 8 % 4 :=
  (by decide +kernel : ∀ t : Fin grid0.N, _)

/-- The activation block of point `t` at `(a, k)` is the activations at row `2048·(t / 32) + a`, column `512·(t % 8) + k`. -/
theorem acts_block (c : Dev nD) (t : Fin cfg0.N) (a : Fin 2048) (k : Fin 512) (p : Fin 8192) (kk : Fin 4096)
    (h0 : p.val = 2048 * (t.val / 32) + a.val) (h1 : kk.val = 512 * (t.val % 8) + k.val) :
    (iblk m c 0 t : Vec Ideal S2048x512 .bf16) (ix2 a k) = aX m c (ix2 p kk) := by
  obtain ⟨e0, e1, -⟩ := idx_facts t
  refine Eq.trans ?_ (congrFun (acts_eq m c) (ix2 p kk))
  show V m c main_v4 (((cfg0.win 0).blk t).view.emb (ix2 a k)) = V m c main_v4 (ix2 p kk)
  refine congrArg _ (funext fun d => Fin.ext ?_)
  match d with
  | ⟨0, _⟩ => show win0_0.index t (0 : Fin 2) * 2048 + 1 * a.val = p.val; rw [e0, h0]; omega
  | ⟨1, _⟩ => show win0_0.index t (1 : Fin 2) * 512 + 1 * k.val = kk.val; rw [e1, h1]; omega

/-- The weight block of point `t` at `(k, b)` is the dequantized weight at row `512·(t % 8) + k`, column
    `1024·(t / 8 % 4) + b`. -/
theorem weight_block (c : Dev nD) (t : Fin cfg0.N) (k : Fin 512) (b : Fin 1024) (kk : Fin 4096) (q : Fin 4096)
    (h0 : kk.val = 512 * (t.val % 8) + k.val) (h1 : q.val = 1024 * (t.val / 8 % 4) + b.val) :
    (iblk m c 1 t : Vec Ideal S512x1024 .bf16) (ix2 k b)
      = aWn m c (ix2 kk q) * aC m c pt * aCk m c (ix2 kk q) := by
  obtain ⟨-, -, e0, e1, -⟩ := idx_facts t
  refine Eq.trans ?_ (weight_apply m c (ix2 kk q))
  show V m c main_v3 (((cfg0.win 1).blk t).view.emb (ix2 k b)) = V m c main_v3 (ix2 kk q)
  refine congrArg _ (funext fun d => Fin.ext ?_)
  match d with
  | ⟨0, _⟩ => show win0_1.index t (0 : Fin 2) * 512 + 1 * k.val = kk.val; rw [e0, h0]; omega
  | ⟨1, _⟩ => show win0_1.index t (1 : Fin 2) * 1024 + 1 * b.val = q.val; rw [e1, h1]; omega

/-- The projected block of point `t` at `(a, r)` is the projection at row `2048·(t / 32) + a`, rank coordinate `r`. -/
theorem projected_block (c : Dev nD) (t : Fin cfg0.N) (a : Fin 2048) (r : Fin 16) (p : Fin 8192)
    (h0 : p.val = 2048 * (t.val / 32) + a.val) :
    (iblk m c 2 t : Vec Ideal S2048x16 .bf16) (ix2 a r)
      = ∑ k : Fin 4096, aX m c (ix2 p k) * aL1 m c (ix2 k r) := by
  obtain ⟨-, -, -, -, e0, e1, -⟩ := idx_facts t
  refine Eq.trans ?_ (projected_apply m c p r)
  show V m c main_v8 (((cfg0.win 2).blk t).view.emb (ix2 a r)) = V m c main_v8 (ix2 p r)
  refine congrArg _ (funext fun d => Fin.ext ?_)
  match d with
  | ⟨0, _⟩ => show win0_2.index t (0 : Fin 2) * 2048 + 1 * a.val = p.val; rw [e0, h0]; omega
  | ⟨1, _⟩ => show win0_2.index t (1 : Fin 2) * 16 + 1 * r.val = r.val; rw [e1]; omega

/-- The second factor's block of point `t` at `(r, b)` is that factor at row `r`, column `1024·(t / 8 % 4) + b`. -/
theorem factor_block (c : Dev nD) (t : Fin cfg0.N) (r : Fin 16) (b : Fin 1024) (q : Fin 4096)
    (h1 : q.val = 1024 * (t.val / 8 % 4) + b.val) :
    (iblk m c 3 t : Vec Ideal S16x1024 .bf16) (ix2 r b) = aL2 m c (ix2 r q) := by
  obtain ⟨-, -, -, -, -, -, e0, e1⟩ := idx_facts t
  refine Eq.trans ?_ (congrFun (factor_eq m c) (ix2 r q))
  show V m c main_v6 (((cfg0.win 3).blk t).view.emb (ix2 r b)) = V m c main_v6 (ix2 r q)
  refine congrArg _ (funext fun d => Fin.ext ?_)
  match d with
  | ⟨0, _⟩ => show win0_3.index t (0 : Fin 2) * 16 + 1 * r.val = r.val; rw [e0]; omega
  | ⟨1, _⟩ => show win0_3.index t (1 : Fin 2) * 1024 + 1 * b.val = q.val; rw [e1, h1]; omega

end Cert.KernelIdeal.Entry

end
-- ==== Proof.LibSumBlocks.lean ====
/-
  A finite sum over `a * b` consecutive indices, taken as `a` consecutive blocks of `b` terms each.
-/
import Mathlib.Algebra.BigOperators.Fin
import Mathlib.Logic.Equiv.Fin.Basic

namespace Cert.LibSumBlocks

open Finset

/-- Term `k` of block `s` sits below `a * b`. -/
theorem blk_lt {a b s k : ℕ} (hs : s < a) (hk : k < b) : b * s + k < a * b :=
  calc b * s + k < b * s + b := Nat.add_lt_add_left hk _
    _ = b * (s + 1) := (Nat.mul_succ b s).symm
    _ ≤ b * a := Nat.mul_le_mul_left b hs
    _ = a * b := Nat.mul_comm b a

/-- In a commutative additive monoid the sum of `F` over `Fin (a * b)` is the sum over the `a` blocks of the sum of
    each block's `b` consecutive terms: `∑_r F r = ∑_{s < a} ∑_{k < b} F (b·s + k)`. Only commutativity and
    associativity of `+` enter, so it holds of the extended reals with their infinities. -/
theorem sum_fin_blocks {M : Type*} [AddCommMonoid M] (a b : ℕ) (F : Fin (a * b) → M) :
    ∑ r : Fin (a * b), F r = ∑ s : Fin a, ∑ k : Fin b, F ⟨b * s.val + k.val, blk_lt s.isLt k.isLt⟩ := by
  rw [← Equiv.sum_comp finProdFinEquiv F, Fintype.sum_prod_type]
  refine Finset.sum_congr rfl fun s _ => Finset.sum_congr rfl fun k _ => congrArg F (Fin.ext ?_)
  show k.val + b * s.val = b * s.val + k.val
  exact Nat.add_comm _ _

end Cert.LibSumBlocks
-- ==== Proof.Fold.lean ====
/-
  The kernel's result array is the target function of the six arguments.

  The output block of one `(ti, tj)` is carried through the eight reduction steps `tk = 0, …, 7` of its run of grid
  points `b, b + 1, …, b + 7` (`b = 32·ti + 8·tj`): it is zeroed and given the first addend at `b`, given one more addend
  at each later point, and at the last point also the rank-16 correction. Point `b + s` adds, at `(a, q)` of the block, the
  512 terms `∑_k X[2048·ti + a, 512·s + k] · W[512·s + k, 1024·tj + q]`. So the block ends at
  `((0 + ∑_{s < 8} ∑_{k < 512} …) + correction)`: the zero drops, the eight blocks of 512 consecutive terms are the one sum over
  all 4096 terms, and the correction is the reference's — only the monoid laws of `+` on the extended reals enter.
-/
import proofs.«169745_j70463233458673_2_alg».proof.Proof.Gen.KernelIdeal.Value
import proofs.«169745_j70463233458673_2_alg».proof.Proof.Entry
import proofs.«169745_j70463233458673_2_alg».proof.Proof.Products
import proofs.«169745_j70463233458673_2_alg».proof.Proof.Target
import proofs.«169745_j70463233458673_2_alg».proof.Proof.LibSumBlocks

noncomputable section

namespace Cert.KernelIdeal.Fold

open Cert.KernelIdeal Cert.KernelIdeal.Gen Cert.KernelIdeal.Value Cert.KernelIdeal.Entry
open Idealize.ShloMosaic Idealize.ShloMosaic.TcCoe Idealize.SL.Sem Idealize.ShloMosaic.ValueIdx

variable (m : (ℓ : Loc nD τ sig) → Buf (Elt Ideal) ℓ)

/-! ## One point's contribution to its output block -/

/-- The four input blocks of point `n`, as arrays of extended reals. -/
abbrev blkX (c : Dev nD) (n : ℕ) (h : n < cfg0.N) : (⟨S2048x512, .bf16⟩ : BufTy).Contents (Elt Ideal) := iblk m c 0 ⟨n, h⟩
abbrev blkW (c : Dev nD) (n : ℕ) (h : n < cfg0.N) : (⟨S512x1024, .bf16⟩ : BufTy).Contents (Elt Ideal) := iblk m c 1 ⟨n, h⟩
abbrev blkP (c : Dev nD) (n : ℕ) (h : n < cfg0.N) : (⟨S2048x16, .bf16⟩ : BufTy).Contents (Elt Ideal) := iblk m c 2 ⟨n, h⟩
abbrev blkL (c : Dev nD) (n : ℕ) (h : n < cfg0.N) : (⟨S16x1024, .bf16⟩ : BufTy).Contents (Elt Ideal) := iblk m c 3 ⟨n, h⟩

/-- What point `n` adds to its output block at `(a, b)`: row `a` of its activation block against column `b` of its
    weight block (zero past the grid, where it is never used). -/
def addend (c : Dev nD) (n : ℕ) (a : Fin 2048) (b : Fin 1024) : EReal :=
  if h : n < cfg0.N then ∑ k : Fin 512, blkX m c n h (ix2 a k) * blkW m c n h (ix2 k b) else 0

/-- What the last point of a run adds besides: row `a` of its projected block against column `b` of its block of the
    second low-rank factor. -/
def correction (c : Dev nD) (n : ℕ) (a : Fin 2048) (b : Fin 1024) : EReal :=
  if h : n < cfg0.N then ∑ r : Fin 16, blkP m c n h (ix2 a r) * blkL m c n h (ix2 r b) else 0

/-- The first point of a run leaves zero plus its addend. -/
theorem reset_apply (c : Dev nD) (n : ℕ) (h : n < cfg0.N) (a : Fin 2048) (b : Fin 1024) :
    reset4 m c n h (ix2 a b) = 0 + addend m c n a b := by
  unfold reset4 addend
  rw [dif_pos h]
  refine (Products.step_apply (k0_pay1 (F := Ideal)) (iblk m c 0 ⟨n, h⟩) (iblk m c 1 ⟨n, h⟩) a b).trans ?_
  exact congrArg (· + _) (Products.zero_apply (ix2 a b))

/-- A middle point of a run adds its addend to what the point before left. -/
theorem step_mid (c : Dev nD) (n : ℕ) (h : n < cfg0.N) (h0 : ¬n % 8 = 0) (h7 : ¬n % 8 = 7)
    (acc : Vec Ideal S2048x1024 .f32) (a : Fin 2048) (b : Fin 1024) :
    step4 m c n h acc (ix2 a b) = acc (ix2 a b) + addend m c n a b := by
  unfold step4 addend
  rw [if_pos (⟨h0, h7⟩ : ¬n % 8 = 0 ∧ ¬n % 8 = 7), dif_pos h]
  exact Products.step_apply acc (iblk m c 0 ⟨n, h⟩) (iblk m c 1 ⟨n, h⟩) a b

/-- The last point of a run adds its addend, then the correction. -/
theorem step_last (c : Dev nD) (n : ℕ) (h : n < cfg0.N) (h7 : n % 8 = 7)
    (acc : Vec Ideal S2048x1024 .f32) (a : Fin 2048) (b : Fin 1024) :
    step4 m c n h acc (ix2 a b) = (acc (ix2 a b) + addend m c n a b) + correction m c n a b := by
  unfold step4 addend correction
  rw [if_neg (fun hh : ¬n % 8 = 0 ∧ ¬n % 8 = 7 => hh.2 h7), if_pos (⟨by omega, h7⟩ : ¬n % 8 = 0 ∧ n % 8 = 7), dif_pos h, dif_pos h]
  refine (Products.close_apply (iblk m c 2 ⟨n, h⟩) (iblk m c 3 ⟨n, h⟩) _ a b).trans ?_
  exact congrArg (· + _) (Products.step_apply acc (iblk m c 0 ⟨n, h⟩) (iblk m c 1 ⟨n, h⟩) a b)

/-- A whole run's fold, at `(a, b)` of the block: zero, plus the eight points' addends, plus the last point's
    correction. -/
theorem fold_apply (c : Dev nD) (b0 : ℕ) (hb : b0 % 8 = 0) (h : b0 + 7 < cfg0.N) (a : Fin 2048) (b : Fin 1024) :
    Pipeline.accAt (reset4 m c) (step4 m c) b0 7 h (ix2 a b)
      = (0 + ∑ s ∈ Finset.range 8, addend m c (b0 + s) a b) + correction m c (b0 + 7) a b := by
  have h6 : Pipeline.accAt (reset4 m c) (step4 m c) b0 6 (Nat.lt_of_succ_lt h) (ix2 a b)
      = 0 + ∑ s ∈ Finset.range 7, addend m c (b0 + s) a b :=
    Pipeline.accAt_add_apply (ι := S2048x1024.Idx) (β := EReal) (reset4 m c) (step4 m c) (fun _ => 0)
      (fun n y => addend m c n (y 0) (y 1)) b0 6
      (fun hh i => by
        obtain ⟨a', b', rfl⟩ : ∃ (a' : Fin 2048) (b' : Fin 1024), i = ix2 a' b' := ⟨i 0, i 1, eq_ix2 i⟩
        exact reset_apply m c b0 hh a' b')
      (fun n hh acc i h1 h2 => by
        obtain ⟨a', b', rfl⟩ : ∃ (a' : Fin 2048) (b' : Fin 1024), i = ix2 a' b' := ⟨i 0, i 1, eq_ix2 i⟩
        exact step_mid m c n hh (by omega) (by omega) acc a' b')
      6 (Nat.le_refl 6) (Nat.lt_of_succ_lt h) (ix2 a b)
  have hstep : Pipeline.accAt (reset4 m c) (step4 m c) b0 7 h
      = step4 m c (b0 + 7) h (Pipeline.accAt (reset4 m c) (step4 m c) b0 6 (Nat.lt_of_succ_lt h)) := rfl
  have e8 : ∑ s ∈ Finset.range 8, addend m c (b0 + s) a b
      = ∑ s ∈ Finset.range 7, addend m c (b0 + s) a b + addend m c (b0 + 7) a b :=
    Finset.sum_range_succ (fun s => addend m c (b0 + s) a b) 7
  rw [hstep, step_last m c (b0 + 7) h (by omega) _ a b, h6, e8]
  exact congrArg (· + correction m c (b0 + 7) a b) (add_assoc _ _ _)

/-! ## The contributions, in the arguments -/

/-- Point `b0 + s` of the run starting at `b0` adds, at `(a, b)`, the terms `512·s, …, 512·s + 511` of the dense sum at
    the array index `(p, q)` that `(a, b)` is in the run's output block. -/
theorem addend_eq (c : Dev nD) (b0 : ℕ) (hb : b0 % 8 = 0) (h : b0 + 7 < cfg0.N) (s : Fin 8) (a : Fin 2048) (b : Fin 1024)
    (p : Fin 8192) (q : Fin 4096) (hp : p.val = 2048 * (b0 / 32) + a.val) (hq : q.val = 1024 * (b0 / 8 % 4) + b.val) :
    addend m c (b0 + s.val) a b
      = ∑ k : Fin 512, aX m c (ix2 p (⟨512 * s.val + k.val, Cert.LibSumBlocks.blk_lt s.isLt k.isLt⟩ : Fin 4096))
          * Cert.Target.weight (aWn m c) (aC m c pt) (aCk m c) (⟨512 * s.val + k.val, Cert.LibSumBlocks.blk_lt s.isLt k.isLt⟩ : Fin 4096) q := by
  have hs := s.isLt
  have hlt : b0 + s.val < cfg0.N := by omega
  unfold addend
  rw [dif_pos hlt]
  refine Finset.sum_congr rfl fun k _ => ?_
  exact congrArg₂ (· * ·)
    (acts_block m c ⟨b0 + s.val, hlt⟩ a k p _ (by show p.val = 2048 * ((b0 + s.val) / 32) + a.val; omega)
      (by show 512 * s.val + k.val = 512 * ((b0 + s.val) % 8) + k.val; omega))
    (weight_block m c ⟨b0 + s.val, hlt⟩ k b _ q (by show 512 * s.val + k.val = 512 * ((b0 + s.val) % 8) + k.val; omega)
      (by show q.val = 1024 * ((b0 + s.val) / 8 % 4) + b.val; omega))

/-- The last point's correction is the rank-16 correction at `(p, q)`. -/
theorem correction_eq (c : Dev nD) (b0 : ℕ) (hb : b0 % 8 = 0) (h : b0 + 7 < cfg0.N) (a : Fin 2048) (b : Fin 1024)
    (p : Fin 8192) (q : Fin 4096) (hp : p.val = 2048 * (b0 / 32) + a.val) (hq : q.val = 1024 * (b0 / 8 % 4) + b.val) :
    correction m c (b0 + 7) a b = Cert.Target.lowRank (aX m c) (aL1 m c) (aL2 m c) p q := by
  unfold correction Cert.Target.lowRank Cert.Target.proj
  rw [dif_pos h]
  refine Finset.sum_congr rfl fun r _ => ?_
  exact congrArg₂ (· * ·)
    (projected_block m c ⟨b0 + 7, h⟩ a r p (by show p.val = 2048 * ((b0 + 7) / 32) + a.val; omega))
    (factor_block m c ⟨b0 + 7, h⟩ r b q (by show q.val = 1024 * ((b0 + 7) / 8 % 4) + b.val; omega))

/-! ## The result array -/

/-- The array the kernel leaves is the target function of the six arguments. -/
theorem result_eq (c : Dev nD) :
    Value.G4 m c = Cert.Target.result (aX m c) (aWn m c) (aC m c pt) (aCk m c) (aL1 m c) (aL2 m c) := by
  funext i
  obtain ⟨p, q, rfl⟩ : ∃ (p : Fin 8192) (q : Fin 4096), i = ix2 p q := ⟨i 0, i 1, eq_ix2 i⟩
  obtain ⟨a, ha⟩ : ∃ a : Fin 2048, a.val = p.val % 2048 := ⟨⟨p.val % 2048, Nat.mod_lt _ (by decide)⟩, rfl⟩
  obtain ⟨b, hb⟩ : ∃ b : Fin 1024, b.val = q.val % 1024 := ⟨⟨q.val % 1024, Nat.mod_lt _ (by decide)⟩, rfl⟩
  have hN : cfg0.N = 128 := N_0
  have hp := p.isLt
  have hq := q.isLt
  have hr : run4Of (ix2 p q) = 4 * (p.val / 2048) + q.val / 1024 := by
    show 4 * (p.val / 2048 - 0) + 1 * (q.val / 1024 - 0) = _
    omega
  have hl : loc4Of (ix2 p q) = ix2 a b := funext fun d => Fin.ext (by
    match d with
    | ⟨0, _⟩ => show p.val % 2048 = a.val; exact ha.symm
    | ⟨1, _⟩ => show q.val % 1024 = b.val; exact hb.symm)
  have hlt : 8 * run4Of (ix2 p q) + 7 < cfg0.N := by rw [hr, hN]; omega
  have hp' : p.val = 2048 * (8 * run4Of (ix2 p q) / 32) + a.val := by rw [hr, ha]; omega
  have hq' : q.val = 1024 * (8 * run4Of (ix2 p q) / 8 % 4) + b.val := by rw [hr, hb]; omega
  unfold Value.G4
  rw [dif_pos hlt, hl]
  refine (fold_apply m c (8 * run4Of (ix2 p q)) (Nat.mul_mod_right 8 _) hlt a b).trans ?_
  show _ = Cert.Target.dense (aX m c) (aWn m c) (aC m c pt) (aCk m c) p q + Cert.Target.lowRank (aX m c) (aL1 m c) (aL2 m c) p q
  rw [zero_add, correction_eq m c _ (Nat.mul_mod_right 8 _) hlt a b p q hp' hq',
    ← Fin.sum_univ_eq_sum_range (fun s => addend m c (8 * run4Of (ix2 p q) + s) a b) 8]
  refine congrArg (· + _) ?_
  unfold Cert.Target.dense
  refine Eq.trans ?_ (Cert.LibSumBlocks.sum_fin_blocks 8 512
    (fun kk : Fin 4096 => aX m c (ix2 p kk) * Cert.Target.weight (aWn m c) (aC m c pt) (aCk m c) kk q)).symm
  exact Finset.sum_congr rfl fun s _ => addend_eq m c _ (Nat.mul_mod_right 8 _) hlt s a b p q hp' hq'

end Cert.KernelIdeal.Fold

end
-- ==== Proof.lean ====
/-
  The claim: over the extended reals the kernel and its reference compute one function of the six arguments,

      Y[p, q] = ∑_k X[p, k] · (Wn[k, q] · c1 · Ck[k, q])  +  ∑_r (∑_k X[p, k] · L1[k, r]) · L2[r, q].

  The reference computes it as written: a dense product with the dequantized weight plus the product of the projected
  activations with the second low-rank factor. The kernel forms the dequantized weight and the projection on the host,
  changes their formats (the identity over the extended reals), and then, for each 2048 × 1024 block of the result,
  walks the 4096 contraction terms in eight consecutive blocks of 512: the block is zeroed, each step adds its 512
  terms, and the last step also adds the rank-16 correction. The two sides differ by a leading zero and by the grouping
  of one finite sum into eight consecutive pieces; both are monoid laws of `+`, which hold with the infinities, so no
  finiteness of the inputs is used. The idealization rewrote nothing, so the kernel is its own idealization.
-/
import proofs.«169745_j70463233458673_2_alg».proof.Defs
import proofs.«169745_j70463233458673_2_alg».proof.Proof.Gen.Kernel.Frame
import proofs.«169745_j70463233458673_2_alg».proof.Proof.Gen.KernelIdeal.Value
import proofs.«169745_j70463233458673_2_alg».proof.Proof.Gen.Pre_finite_inputs
import proofs.«169745_j70463233458673_2_alg».proof.Proof.Gen.ReferenceIdeal.Run
import proofs.«169745_j70463233458673_2_alg».proof.Proof.RefSide
import proofs.«169745_j70463233458673_2_alg».proof.Proof.Fold
import Idealize.ShloMosaic.Adequacy
import Idealize.ShloMosaic.Init

noncomputable section

namespace Cert.Proof

open Idealize.ShloMosaic Idealize.SL.Sem

/-- The idealized kernel terminates without a fault and leaves its arguments as they were: its run, with the result
    dropped. -/
theorem frame_KernelIdeal : frame_KernelIdeal := fun m ρ _ =>
  (θ_run Cert.KernelIdeal.defs _ _).mono (fun _ h c => (h c).2) (Cert.KernelIdeal.Value.run (F := Ideal) m ρ)

/-- The same of the reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the six arguments both programs end with the target function of those arguments in
    their result arrays. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  show Cert.ReferenceIdeal.Read.val_main_v6 (F := Ideal) (Cert.KernelIdeal.Entry.aX m c) (Cert.KernelIdeal.Entry.aWn m c)
    (Cert.KernelIdeal.Entry.aC m c) (Cert.KernelIdeal.Entry.aCk m c) (Cert.KernelIdeal.Entry.aL1 m c) (Cert.KernelIdeal.Entry.aL2 m c) = _
  rw [Cert.ReferenceIdeal.RefValue.result_eq, Cert.KernelIdeal.Fold.result_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
